-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S32x64 : Shape := ⟨2, ![32, 64]⟩
abbrev S4x64x64 : Shape := ⟨3, ![4, 64, 64]⟩
abbrev S64x3 : Shape := ⟨2, ![64, 3]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  main_v18

def fn {F : FTy → Type} [FloatOps F] (main_arg0 : FVec F S2097152x32 .f32) (main_arg1 : FVec F S32x64 .f32) (main_arg2 : FVec F S4x64x64 .f32) (main_arg3 : FVec F S64x3 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S4x64x64 .f32 := Host.absf main_arg2
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_v13 main_v16
-- ==== Kernel.lean ====
abbrev S2097152x32 : Shape := ⟨2, ![2097152, 32]⟩
abbrev S32x64 : Shape := ⟨2, ![32, 64]⟩
abbrev S4x64x64 : Shape := ⟨3, ![4, 64, 64]⟩
abbrev S64x3 : Shape := ⟨2, ![64, 3]⟩
abbrev S32x2097152 : Shape := ⟨2, ![32, 2097152]⟩
abbrev S64x32 : Shape := ⟨2, ![64, 32]⟩
abbrev S3x64 : Shape := ⟨2, ![3, 64]⟩
abbrev S3x2097152 : Shape := ⟨2, ![3, 2097152]⟩
abbrev S32x16384 : Shape := ⟨2, ![32, 16384]⟩
abbrev S3x16384 : Shape := ⟨2, ![3, 16384]⟩
abbrev S64x16384 : Shape := ⟨2, ![64, 16384]⟩
abbrev S1x64x64 : Shape := ⟨3, ![1, 64, 64]⟩
abbrev S64x64 : Shape := ⟨2, ![64, 64]⟩
abbrev S2097152x3 : Shape := ⟨2, ![2097152, 3]⟩

abbrev nBuf : Space → Nat
  | .hbm => 14
  | .vmem => 7
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S4x64x64, .f32⟩
  | .hbm, ⟨3, _⟩ => ⟨S64x3, .f32⟩
  | .hbm, ⟨4, _⟩ => ⟨S2097152x32, .bf16⟩
  | .hbm, ⟨5, _⟩ => ⟨S32x2097152, .bf16⟩
  | .hbm, ⟨6, _⟩ => ⟨S64x32, .f32⟩
  | .hbm, ⟨7, _⟩ => ⟨S64x32, .bf16⟩
  | .hbm, ⟨8, _⟩ => ⟨S4x64x64, .f32⟩
  | .hbm, ⟨9, _⟩ => ⟨S4x64x64, .bf16⟩
  | .hbm, ⟨10, _⟩ => ⟨S3x64, .f32⟩
  | .hbm, ⟨11, _⟩ => ⟨S3x64, .bf16⟩
  | .hbm, ⟨12, _⟩ => ⟨S3x2097152, .f32⟩
  | .hbm, ⟨13, _⟩ => ⟨S2097152x3, .f32⟩
  | .local _ .vmem, ⟨0, _⟩ => ⟨S32x16384, .bf16⟩
  | .local _ .vmem, ⟨1, _⟩ => ⟨S32x16384, .bf16⟩
  | .local _ .vmem, ⟨2, _⟩ => ⟨S64x32, .bf16⟩
  | .local _ .vmem, ⟨3, _⟩ => ⟨S4x64x64, .bf16⟩
  | .local _ .vmem, ⟨4, _⟩ => ⟨S3x64, .bf16⟩
  | .local _ .vmem, ⟨5, _⟩ => ⟨S3x16384, .f32⟩
  | .local _ .vmem, ⟨6, _⟩ => ⟨S3x16384, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S2097152x32_S32x2097152_1_0 : S2097152x32.Transposes [1, 0] S32x2097152
  transposes_S32x64_S64x32_1_0 : S32x64.Transposes [1, 0] S64x32
  transposes_S4x64x64_S4x64x64_0_2_1 : S4x64x64.Transposes [0, 2, 1] S4x64x64
  transposes_S64x3_S3x64_1_0 : S64x3.Transposes [1, 0] S3x64
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64x64_S1x64x64_1_0_0 : ∀ a, (![1, 0, 0] : Fin 3 → Nat) a + S1x64x64.size a ≤ S4x64x64.size a
  inb_S4x64x64_S1x64x64_2_0_0 : ∀ a, (![2, 0, 0] : Fin 3 → Nat) a + S1x64x64.size a ≤ S4x64x64.size a
  inb_S4x64x64_S1x64x64_3_0_0 : ∀ a, (![3, 0, 0] : Fin 3 → Nat) a + S1x64x64.size a ≤ S4x64x64.size a
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x16384_S3x16384_0_0 : ∀ a, (![0, 0] : Fin 2 → Nat) a + S3x16384.size a ≤ S3x16384.size a
  h_S3x16384 : 0 < S3x16384.numel
  transposes_S3x2097152_S2097152x3_1_0 : S3x2097152.Transposes [1, 0] S2097152x3
  dot_S64x32_S32x16384_S64x16384_1_0_0_1_n_n_wf : DotDims.WF S64x32 S32x16384 S64x16384 [1] [0] [0] [1] [] []
  dot_S64x64_S64x16384_S64x16384_1_0_0_1_n_n_wf : DotDims.WF S64x64 S64x16384 S64x16384 [1] [0] [0] [1] [] []
  dot_S3x64_S64x16384_S3x16384_1_0_0_1_n_n_wf : DotDims.WF S3x64 S64x16384 S3x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x2097152.size a
  hwx0_0 : ∀ i : grid0.Coords, EltTy.bits .bf16 = 32 ∨ (Rect.block (s := S32x2097152) S32x16384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .bf16 = 32 ∨ (Rect.block (s := S64x32) S64x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .bf16 = 32 ∨ (Rect.block (s := S4x64x64) S4x64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .bf16 = 32 ∨ (Rect.block (s := S3x64) S3x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x16384.size a ≤ S3x2097152.size a
  hwx0_4 : ∀ i : grid0.Coords, EltTy.bits .f32 = 32 ∨ (Rect.block (s := S3x2097152) S3x16384.size (cc0_transform_4 i) (hinb0_4 i)).WholeWords (EltTy.packing .f32)

variable [Facts₀]

def dot_S64x32_S32x16384_S64x16384_1_0_0_1_n_n : DotDims S64x32 S32x16384 S64x16384 where
  lhsContracting := [1]
  rhsContracting := [0]
  lhsNonContracting := [0]
  rhsNonContracting := [1]
  lhsBatch := []
  rhsBatch := []
  wf := dot_S64x32_S32x16384_S64x16384_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf
def dot_S3x64_S64x16384_S3x16384_1_0_0_1_n_n : DotDims S3x64 S64x16384 S3x16384 where
  lhsContracting := [1]
  rhsContracting := [0]
  lhsNonContracting := [0]
  rhsNonContracting := [1]
  lhsBatch := []
  rhsBatch := []
  wf := dot_S3x64_S64x16384_S3x16384_1_0_0_1_n_n_wf

abbrev win0_0 : Pipeline.Window sig grid0 :=
  Pipeline.Window.ofSpec (Memref.whole main_v1) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S3x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S32x64 : Shape := ⟨2, ![32, 64]⟩
abbrev S4x64x64 : Shape := ⟨3, ![4, 64, 64]⟩
abbrev S64x3 : Shape := ⟨2, ![64, 3]⟩
abbrev S2097152x64 : Shape := ⟨2, ![2097152, 64]⟩
abbrev S_ : Shape := ⟨0, ![]⟩
abbrev S1x64x64 : Shape := ⟨3, ![1, 64, 64]⟩
abbrev S64x64 : Shape := ⟨2, ![64, 64]⟩
abbrev S2097152x3 : Shape := ⟨2, ![2097152, 3]⟩

abbrev nBuf : Space → Nat
  | .hbm => 33
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S32x64, .f32⟩
  | .hbm, ⟨2, _⟩ => ⟨S4x64x64, .f32⟩
  | .hbm, ⟨3, _⟩ => ⟨S64x3, .f32⟩
  | .hbm, ⟨4, _⟩ => ⟨S2097152x64, .f32⟩
  | .hbm, ⟨5, _⟩ => ⟨S_, .f32⟩
  | .hbm, ⟨6, _⟩ => ⟨S2097152x64, .f32⟩
  | .hbm, ⟨7, _⟩ => ⟨S2097152x64, .f32⟩
  | .hbm, ⟨8, _⟩ => ⟨S1x64x64, .f32⟩
  | .hbm, ⟨9, _⟩ => ⟨S64x64, .f32⟩
  | .hbm, ⟨10, _⟩ => ⟨S2097152x64, .f32⟩
  | .hbm, ⟨11, _⟩ => ⟨S_, .f32⟩
  | .hbm, ⟨12, _⟩ => ⟨S2097152x64, .f32⟩
  | .hbm, ⟨13, _⟩ => ⟨S2097152x64, .f32⟩
  | .hbm, ⟨14, _⟩ => ⟨S1x64x64, .f32⟩
  | .hbm, ⟨15, _⟩ => ⟨S64x64, .f32⟩
  | .hbm, ⟨16, _⟩ => ⟨S2097152x64, .f32⟩
  | .hbm, ⟨17, _⟩ => ⟨S_, .f32⟩
  | .hbm, ⟨18, _⟩ => ⟨S2097152x64, .f32⟩
  | .hbm, ⟨19, _⟩ => ⟨S2097152x64, .f32⟩
  | .hbm, ⟨20, _⟩ => ⟨S1x64x64, .f32⟩
  | .hbm, ⟨21, _⟩ => ⟨S64x64, .f32⟩
  | .hbm, ⟨22, _⟩ => ⟨S2097152x64, .f32⟩
  | .hbm, ⟨23, _⟩ => ⟨S_, .f32⟩
  | .hbm, ⟨24, _⟩ => ⟨S2097152x64, .f32⟩
  | .hbm, ⟨25, _⟩ => ⟨S2097152x64, .f32⟩
  | .hbm, ⟨26, _⟩ => ⟨S1x64x64, .f32⟩
  | .hbm, ⟨27, _⟩ => ⟨S64x64, .f32⟩
  | .hbm, ⟨28, _⟩ => ⟨S2097152x64, .f32⟩
  | .hbm, ⟨29, _⟩ => ⟨S_, .f32⟩
  | .hbm, ⟨30, _⟩ => ⟨S2097152x64, .f32⟩
  | .hbm, ⟨31, _⟩ => ⟨S2097152x64, .f32⟩
  | .hbm, ⟨32, _⟩ => ⟨S2097152x3, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_cst : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call3_cst : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call4_cst : Ref sig .tc := ⟨.hbm, 29, rfl⟩
abbrev main_call4_v0 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S2097152x64 : S_.BroadcastsInDim S2097152x64 (![] : Fin 0 → Fin S2097152x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Network.lean ====
/-
  The network both programs compute, written for ONE input row over the extended reals.

  A dense layer sends a row `v` to `j ↦ ∑ k, v k · W k j`; the rectifier is `max · 0` entry by entry. The network is
  32 → 64 → 64 → 64 → 64 → 64 → 3: five rectified dense layers (the first with `W0`, the next four with the four
  slabs of `Wh`) and a last dense layer with `Wo`, no rectifier. Row `b` of the result depends on row `b` of the
  input only, which is why the batch may be cut into column tiles of the transposed problem, and why a tile's
  entry is this one-row function of its column.
-/
import Idealize.ShloMosaic.Lib.ValueIdx
import Idealize.ShloMosaic.PureOps.Ideal

noncomputable section

namespace Cert.Mlp

open Idealize.ShloMosaic Idealize.ShloMosaic.ValueIdx

/-- One dense layer on one row: `(v · W) j = ∑ k, v k · W k j`. -/
def dense {K J : Nat} (v : Fin K → EReal) (W : Fin K → Fin J → EReal) : Fin J → EReal :=
  fun j => ∑ k : Fin K, v k * W k j

/-- The rectifier, entry by entry. -/
def relu {J : Nat} (v : Fin J → EReal) : Fin J → EReal := fun j => max (v j) 0

/-- The product of the extended reals commutes, so a layer written with the weight first (the transposed
    problem: `∑ k, Wᵀ j k · v k`) is the same layer. -/
theorem dense_swap {K J : Nat} (v : Fin K → EReal) (W : Fin K → Fin J → EReal) (j : Fin J) :
    (∑ k : Fin K, W k j * v k) = dense v W j :=
  Finset.sum_congr rfl fun k _ => mul_comm _ _

/-- The whole network on one row. -/
def row (xb : Fin 32 → EReal) (W0 : Fin 32 → Fin 64 → EReal) (Wh : Fin 4 → Fin 64 → Fin 64 → EReal)
    (Wo : Fin 64 → Fin 3 → EReal) : Fin 3 → EReal :=
  dense (relu (dense (relu (dense (relu (dense (relu (dense (relu (dense xb W0)) (Wh 0))) (Wh 1))) (Wh 2))) (Wh 3))) Wo

/-- The result array [2097152, 3] as one function of the four argument arrays: entry `(b, o)` is the network
    on row `b` of `x`, read at `o`. -/
def G (x : (⟨2, ![2097152, 32]⟩ : Shape).Idx → EReal) (W0 : (⟨2, ![32, 64]⟩ : Shape).Idx → EReal)
    (Wh : (⟨3, ![4, 64, 64]⟩ : Shape).Idx → EReal) (Wo : (⟨2, ![64, 3]⟩ : Shape).Idx → EReal) :
    (⟨2, ![2097152, 3]⟩ : Shape).Idx → EReal :=
  fun i => row (fun k => x (ix2 (i 0) k)) (fun k j => W0 (ix2 k j)) (fun l k j => Wh (ix3 l k j))
    (fun k o => Wo (ix2 k o)) (i 1)

/-- The same array with its two axes exchanged, [3, 2097152]: what the transposed problem produces. -/
def GT (x : (⟨2, ![2097152, 32]⟩ : Shape).Idx → EReal) (W0 : (⟨2, ![32, 64]⟩ : Shape).Idx → EReal)
    (Wh : (⟨3, ![4, 64, 64]⟩ : Shape).Idx → EReal) (Wo : (⟨2, ![64, 3]⟩ : Shape).Idx → EReal) :
    (⟨2, ![3, 2097152]⟩ : Shape).Idx → EReal :=
  fun i => G x W0 Wh Wo (ix2 (i 1) (i 0))

end Cert.Mlp

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.Body.lean ====
/-
  What the kernel body computes on one tile, read at an index.

  The body holds a tile of the TRANSPOSED problem: the input block is [32, 16384] (features × batch columns), every
  weight arrives transposed ([out, in]), and each layer is `W · g`: entry `(j, q)` of a layer is
  `max (∑ k, W (j, k) · g (k, q)) 0`, the last one without the rectifier. Changes of float format are the identity
  over the extended reals. Column `q` of every layer depends on column `q` of the input block only, so entry
  `(o, q)` of what the body stores is the one-row network on that column, once each transposed weight is read as
  the weight it transposes and the products are commuted.
-/
import proofs.«176518_j72722386256143_2_alg».proof.Proof.Gen.KernelIdeal.Skeleton
import proofs.«176518_j72722386256143_2_alg».proof.Proof.Network
import proofs.«176518_j72722386256143_2_alg».proof.Proof.LibPlainProduct
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The first layer on a tile: the transposed first weight [64, 32] times the input block [32, 16384], rectified. -/
def first (v0 : Vec Ideal S32x16384 .bf16) (v2 : Vec Ideal S64x32 .bf16) : FVec Ideal S64x16384 .bf16 :=
  truncf .bf16 (maximumf (matmul dot_S64x32_S32x16384_S64x16384_1_0_0_1_n_n none
      (shapeCast S64x32 v2 shapeCasts_S64x32_S64x32 : FVec Ideal S64x32 .bf16)
      (shapeCast S32x16384 v0 shapeCasts_S32x16384_S32x16384 : FVec Ideal S32x16384 .bf16)
      (constant S64x16384 .f32 0x00000000#32)) (broadcast S64x16384 (Scalar.ofBits .f32 0x00000000#32))) bitsLt_bf16_f32

/-- A hidden layer on a tile: one transposed [1, 64, 64] slab of the hidden weights times the layer before, rectified. -/
def hidden (w : Vec Ideal S1x64x64 .bf16) (g : FVec Ideal S64x16384 .bf16) : FVec Ideal S64x16384 .bf16 :=
  truncf .bf16 (maximumf (matmul dot_S64x64_S64x16384_S64x16384_1_0_0_1_n_n none
      (shapeCast S64x64 w shapeCasts_S1x64x64_S64x64 : FVec Ideal S64x64 .bf16) g
      (constant S64x16384 .f32 0x00000000#32)) (broadcast S64x16384 (Scalar.ofBits .f32 0x00000000#32))) bitsLt_bf16_f32

/-- The last layer on a tile: the transposed output weight [3, 64] times the last hidden layer, not rectified. -/
def last (g : FVec Ideal S64x16384 .bf16) (v32 : Vec Ideal S3x64 .bf16) : FVec Ideal S3x16384 .f32 :=
  matmul dot_S3x64_S64x16384_S3x16384_1_0_0_1_n_n none (shapeCast S3x64 v32 shapeCasts_S3x64_S3x64 : FVec Ideal S3x64 .bf16) g
    (constant S3x16384 .f32 0x00000000#32)

/-- The body's two payloads are these layers composed. -/
theorem pay2_eq (v0 : Vec Ideal S32x16384 .bf16) (v2 : Vec Ideal S64x32 .bf16) (v8 v14 v20 v26 : Vec Ideal S1x64x64 .bf16) :
    k0_pay2 v0 v2 v8 v14 v20 v26 = hidden v26 (hidden v20 (hidden v14 (hidden v8 (first v0 v2)))) := rfl

theorem pay1_eq (g : FVec Ideal S64x16384 .bf16) (v32 : Vec Ideal S3x64 .bf16) : k0_pay1 g v32 = last g v32 := rfl

/-- A [1, 64, 64] slab viewed as [64, 64]: entry `(j, k)` is entry `(0, j, k)`. -/
theorem slab_apply (w : Vec Ideal S1x64x64 .bf16) (j k : Fin 64) :
    (shapeCast S64x64 w shapeCasts_S1x64x64_S64x64 : FVec Ideal S64x64 .bf16) (ix2 j k) = w (ix3 0 j k) := by
  refine shapeCast_apply w shapeCasts_S1x64x64_S64x64 (ix2 j k) (ix3 0 j k) ?_
  rw [Shape.rowMajor_val_three, Shape.rowMajor_val_two]
  show (0 * 64 + j.val) * 64 + k.val = j.val * 64 + k.val
  omega

/-- The first layer at `(j, q)`. -/
theorem first_apply (v0 : Vec Ideal S32x16384 .bf16) (v2 : Vec Ideal S64x32 .bf16) (j : Fin 64) (q : Fin 16384) :
    first v0 v2 (ix2 j q) = max (∑ k : Fin 32, v2 (ix2 j k) * v0 (ix2 k q)) 0 := by
  unfold first
  rw [shapeCast_self, shapeCast_self]
  show max (matmul dot_S64x32_S32x16384_S64x16384_1_0_0_1_n_n none v2 v0 (constant S64x16384 .f32 0x00000000#32) (ix2 j q))
    (Ideal.ofBits .f32 0x00000000#32) = _
  rw [Cert.PlainProduct.matmul_plain_apply dot_S64x32_S32x16384_S64x16384_1_0_0_1_n_n rfl, Ideal.ofBits_zero_f32]

/-- A hidden layer at `(j, q)`. -/
theorem hidden_apply (w : Vec Ideal S1x64x64 .bf16) (g : FVec Ideal S64x16384 .bf16) (j : Fin 64) (q : Fin 16384) :
    hidden w g (ix2 j q) = max (∑ k : Fin 64, w (ix3 0 j k) * g (ix2 k q)) 0 := by
  unfold hidden
  show max (matmul dot_S64x64_S64x16384_S64x16384_1_0_0_1_n_n none (shapeCast S64x64 w shapeCasts_S1x64x64_S64x64 : FVec Ideal S64x64 .bf16) g
    (constant S64x16384 .f32 0x00000000#32) (ix2 j q)) (Ideal.ofBits .f32 0x00000000#32) = _
  rw [Cert.PlainProduct.matmul_plain_apply dot_S64x64_S64x16384_S64x16384_1_0_0_1_n_n rfl, Ideal.ofBits_zero_f32]
  exact congrArg (max · 0) (Finset.sum_congr rfl fun k _ => by rw [slab_apply])

/-- The last layer at `(o, q)`. -/
theorem last_apply (g : FVec Ideal S64x16384 .bf16) (v32 : Vec Ideal S3x64 .bf16) (o : Fin 3) (q : Fin 16384) :
    last g v32 (ix2 o q) = ∑ k : Fin 64, v32 (ix2 o k) * g (ix2 k q) := by
  unfold last
  rw [shapeCast_self, Cert.PlainProduct.matmul_plain_apply dot_S3x64_S64x16384_S3x16384_1_0_0_1_n_n rfl]

/-- WHAT THE BODY STORES, at entry `y = (o, q)` of the output tile: the one-row network on column `q` of the input
    block, for any reading of the loaded blocks as a row `xb` and weights `W0`, `Wh`, `Wo` — each loaded weight block
    being the transpose of the weight it is read as. -/
theorem stored_apply (v0 : Vec Ideal S32x16384 .bf16) (v2 : Vec Ideal S64x32 .bf16) (v8 v14 v20 v26 : Vec Ideal S1x64x64 .bf16)
    (v32 : Vec Ideal S3x64 .bf16) (y : S3x16384.Idx)
    (xb : Fin 32 → EReal) (W0 : Fin 32 → Fin 64 → EReal) (Wh : Fin 4 → Fin 64 → Fin 64 → EReal) (Wo : Fin 64 → Fin 3 → EReal)
    (hx : ∀ k : Fin 32, v0 (ix2 k (y 1)) = xb k)
    (hW0 : ∀ (j : Fin 64) (k : Fin 32), v2 (ix2 j k) = W0 k j)
    (hWh0 : ∀ j k : Fin 64, v8 (ix3 0 j k) = Wh 0 k j) (hWh1 : ∀ j k : Fin 64, v14 (ix3 0 j k) = Wh 1 k j)
    (hWh2 : ∀ j k : Fin 64, v20 (ix3 0 j k) = Wh 2 k j) (hWh3 : ∀ j k : Fin 64, v26 (ix3 0 j k) = Wh 3 k j)
    (hWo : ∀ (o : Fin 3) (k : Fin 64), v32 (ix2 o k) = Wo k o) :
    k0_pay1 (k0_pay2 v0 v2 v8 v14 v20 v26) v32 y = Cert.Mlp.row xb W0 Wh Wo (y 0) := by
  obtain ⟨o, q, rfl⟩ : ∃ (o : Fin 3) (q : Fin 16384), y = ix2 o q := ⟨y 0, y 1, eq_ix2 y⟩
  have hx' : ∀ k : Fin 32, v0 (ix2 k q) = xb k := hx
  have e0 : ∀ j : Fin 64, first v0 v2 (ix2 j q) = Cert.Mlp.relu (Cert.Mlp.dense xb W0) j := fun j => by
    rw [first_apply]
    exact congrArg (max · 0) ((Finset.sum_congr rfl fun k _ => by rw [hx' k, hW0 j k]).trans (Cert.Mlp.dense_swap xb W0 j))
  have e1 : ∀ j : Fin 64, hidden v8 (first v0 v2) (ix2 j q)
      = Cert.Mlp.relu (Cert.Mlp.dense (Cert.Mlp.relu (Cert.Mlp.dense xb W0)) (Wh 0)) j := fun j => by
    rw [hidden_apply]
    exact congrArg (max · 0) ((Finset.sum_congr rfl fun k _ => by rw [hWh0 j k, e0 k]).trans (Cert.Mlp.dense_swap _ (Wh 0) j))
  have e2 : ∀ j : Fin 64, hidden v14 (hidden v8 (first v0 v2)) (ix2 j q)
      = Cert.Mlp.relu (Cert.Mlp.dense (Cert.Mlp.relu (Cert.Mlp.dense (Cert.Mlp.relu (Cert.Mlp.dense xb W0)) (Wh 0))) (Wh 1)) j := fun j => by
    rw [hidden_apply]
    exact congrArg (max · 0) ((Finset.sum_congr rfl fun k _ => by rw [hWh1 j k, e1 k]).trans (Cert.Mlp.dense_swap _ (Wh 1) j))
  have e3 : ∀ j : Fin 64, hidden v20 (hidden v14 (hidden v8 (first v0 v2))) (ix2 j q)
      = Cert.Mlp.relu (Cert.Mlp.dense (Cert.Mlp.relu (Cert.Mlp.dense (Cert.Mlp.relu (Cert.Mlp.dense (Cert.Mlp.relu (Cert.Mlp.dense xb W0)) (Wh 0))) (Wh 1))) (Wh 2)) j := fun j => by
    rw [hidden_apply]
    exact congrArg (max · 0) ((Finset.sum_congr rfl fun k _ => by rw [hWh2 j k, e2 k]).trans (Cert.Mlp.dense_swap _ (Wh 2) j))
  have e4 : ∀ j : Fin 64, hidden v26 (hidden v20 (hidden v14 (hidden v8 (first v0 v2)))) (ix2 j q)
      = Cert.Mlp.relu (Cert.Mlp.dense (Cert.Mlp.relu (Cert.Mlp.dense (Cert.Mlp.relu (Cert.Mlp.dense (Cert.Mlp.relu (Cert.Mlp.dense (Cert.Mlp.relu (Cert.Mlp.dense xb W0)) (Wh 0))) (Wh 1))) (Wh 2))) (Wh 3)) j := fun j => by
    rw [hidden_apply]
    exact congrArg (max · 0) ((Finset.sum_congr rfl fun k _ => by rw [hWh3 j k, e3 k]).trans (Cert.Mlp.dense_swap _ (Wh 3) j))
  rw [pay2_eq, pay1_eq, last_apply]
  exact (Finset.sum_congr rfl fun k _ => by rw [hWo o k, e4 k]).trans (Cert.Mlp.dense_swap _ Wo o)

end Cert.KernelIdeal.Body

end
-- ==== Proof.Operands.lean ====
/-
  What the region finds in its four operand arrays, and what a tile's blocks are.

  Before the region the host lays the problem out transposed: the input [2097152, 32] becomes [32, 2097152], the
  first weight [32, 64] becomes [64, 32], each of the four hidden slabs [64, 64] is transposed in place, and the output
  weight [64, 3] becomes [3, 64]. The changes of float format in between are the identity over the extended reals, so
  each operand array read at an index is an argument array read at the index with its last two coordinates exchanged.

  The grid has 128 points. At point `t` the input window's block is columns `16384·t … 16384·t + 16383` of the
  transposed input; each weight window's one block is its whole array at every point; the body reads the hidden
  weights slab by slab.
-/
import proofs.«176518_j72722386256143_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Operands

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-! ## The operand arrays as the region finds them -/

/-- The transposed input. -/
theorem found_x (c : Dev nD) : @Eq (S32x2097152.Idx → EReal) (V m c main_v1)
    (transpose S32x2097152 [1, 0] (truncf (F := Ideal) .bf16 (m ((c : Thread nD τ).loc main_arg0) : FVec Ideal S2097152x32 .f32) bitsLt_bf16_f32)
        transposes_S2097152x32_S32x2097152_1_0) := by
  show StableHlo.after hostOps0 (fun b => m (c, b)) (Proc.devRef .tc main_v1) = _
  after_results

/-- The transposed first weight. -/
theorem found_w0 (c : Dev nD) : @Eq (S64x32.Idx → EReal) (V m c main_v3)
    (truncf (F := Ideal) .bf16 (transpose S64x32 [1, 0] (m ((c : Thread nD τ).loc main_arg1) : FVec Ideal S32x64 .f32)
        transposes_S32x64_S64x32_1_0) bitsLt_bf16_f32) := by
  show StableHlo.after hostOps0 (fun b => m (c, b)) (Proc.devRef .tc main_v3) = _
  after_results

/-- The hidden weights, each slab transposed. -/
theorem found_wh (c : Dev nD) : @Eq (S4x64x64.Idx → EReal) (V m c main_v5)
    (truncf (F := Ideal) .bf16 (transpose S4x64x64 [0, 2, 1] (m ((c : Thread nD τ).loc main_arg2) : FVec Ideal S4x64x64 .f32)
        transposes_S4x64x64_S4x64x64_0_2_1) bitsLt_bf16_f32) := by
  show StableHlo.after hostOps0 (fun b => m (c, b)) (Proc.devRef .tc main_v5) = _
  after_results

/-- The transposed output weight. -/
theorem found_wo (c : Dev nD) : @Eq (S3x64.Idx → EReal) (V m c main_v7)
    (truncf (F := Ideal) .bf16 (transpose S3x64 [1, 0] (m ((c : Thread nD τ).loc main_arg3) : FVec Ideal S64x3 .f32)
        transposes_S64x3_S3x64_1_0) bitsLt_bf16_f32) := by
  show StableHlo.after hostOps0 (fun b => m (c, b)) (Proc.devRef .tc main_v7) = _
  after_results

/-- Entry `(k, b)` of the transposed input is entry `(b, k)` of the input. -/
theorem found_x_apply (c : Dev nD) (k : Fin 32) (b : Fin 2097152) :
    (V m c main_v1 : S32x2097152.Idx → EReal) (ix2 k b)
      = (m ((c : Thread nD τ).loc main_arg0) : S2097152x32.Idx → EReal) (ix2 b k) := by
  rw [found_x]
  exact transpose_apply [1, 0] _ transposes_S2097152x32_S32x2097152_1_0 (ix2 k b) (ix2 b k)
    (fun a => by match a with | ⟨0, _⟩ => rfl | ⟨1, _⟩ => rfl)

/-- Entry `(j, k)` of the transposed first weight is entry `(k, j)` of the weight. -/
theorem found_w0_apply (c : Dev nD) (j : Fin 64) (k : Fin 32) :
    (V m c main_v3 : S64x32.Idx → EReal) (ix2 j k)
      = (m ((c : Thread nD τ).loc main_arg1) : S32x64.Idx → EReal) (ix2 k j) := by
  rw [found_w0]
  exact transpose_apply [1, 0] _ transposes_S32x64_S64x32_1_0 (ix2 j k) (ix2 k j)
    (fun a => by match a with | ⟨0, _⟩ => rfl | ⟨1, _⟩ => rfl)

/-- Entry `(l, j, k)` of the transposed hidden weights is entry `(l, k, j)` of the weights. -/
theorem found_wh_apply (c : Dev nD) (l : Fin 4) (j k : Fin 64) :
    (V m c main_v5 : S4x64x64.Idx → EReal) (ix3 l j k)
      = (m ((c : Thread nD τ).loc main_arg2) : S4x64x64.Idx → EReal) (ix3 l k j) := by
  rw [found_wh]
  exact transpose_apply [0, 2, 1] _ transposes_S4x64x64_S4x64x64_0_2_1 (ix3 l j k) (ix3 l k j)
    (fun a => by match a with | ⟨0, _⟩ => rfl | ⟨1, _⟩ => rfl | ⟨2, _⟩ => rfl)

/-- Entry `(o, k)` of the transposed output weight is entry `(k, o)` of the weight. -/
theorem found_wo_apply (c : Dev nD) (o : Fin 3) (k : Fin 64) :
    (V m c main_v7 : S3x64.Idx → EReal) (ix2 o k)
      = (m ((c : Thread nD τ).loc main_arg3) : S64x3.Idx → EReal) (ix2 k o) := by
  rw [found_wo]
  exact transpose_apply [1, 0] _ transposes_S64x3_S3x64_1_0 (ix2 o k) (ix2 k o)
    (fun a => by match a with | ⟨0, _⟩ => rfl | ⟨1, _⟩ => rfl)

/-! ## The blocks at a grid point -/

/-- The index maps over the 128 points: the input and the output move along their column axis with the point, the
    weights stay at block zero. -/
theorem block_indices : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The input block at point `t`, at `y`, is the transposed input at row `y 0`, column `16384·t + y 1`. -/
theorem x_block_apply (c : Dev nD) (t : Fin cfg0.N) (y : S32x16384.Idx) (i : S32x2097152.Idx)
    (h0 : (i 0).val = (y 0).val) (h1 : (i 1).val = t.val * 16384 + (y 1).val) :
    (iblk m c 0 t : Vec Ideal S32x16384 .bf16) y = (V m c main_v1 : S32x2097152.Idx → EReal) i := by
  obtain ⟨e0, e1, -⟩ := block_indices t
  unfold iblk
  rw [View.read_apply]
  show V m c main_v1 _ = V m c main_v1 _
  congr 1
  funext a
  apply Fin.ext
  match a with
  | ⟨0, _⟩ => show win0_0.index t (0 : Fin 2) * 32 + 1 * (y 0).val = (i 0).val; rw [e0, h0]; omega
  | ⟨1, _⟩ => show win0_0.index t (1 : Fin 2) * 16384 + 1 * (y 1).val = (i 1).val; rw [e1, h1]; omega

/-- The first weight's block at any point is the whole transposed weight. -/
theorem w0_block_apply (c : Dev nD) (t : Fin cfg0.N) (y : S64x32.Idx) :
    (iblk m c 1 t : Vec Ideal S64x32 .bf16) y = (V m c main_v3 : S64x32.Idx → EReal) y := by
  obtain ⟨-, -, e0, e1, -⟩ := block_indices t
  unfold iblk
  rw [View.read_apply]
  show V m c main_v3 _ = V m c main_v3 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 32 + 1 * (y 1).val = (y 1).val; rw [e1]; omega

/-- The hidden weights' block at any point is the whole transposed array. -/
theorem wh_block_apply (c : Dev nD) (t : Fin cfg0.N) (y : S4x64x64.Idx) :
    (iblk m c 2 t : Vec Ideal S4x64x64 .bf16) y = (V m c main_v5 : S4x64x64.Idx → EReal) y := by
  obtain ⟨-, -, -, -, e0, e1, e2, -⟩ := block_indices t
  unfold iblk
  rw [View.read_apply]
  show V m c main_v5 _ = V m c main_v5 _
  congr 1
  funext a
  apply Fin.ext
  match a with
  | ⟨0, _⟩ => show win0_2.index t (0 : Fin 3) * 4 + 1 * (y 0).val = (y 0).val; rw [e0]; omega
  | ⟨1, _⟩ => show win0_2.index t (1 : Fin 3) * 64 + 1 * (y 1).val = (y 1).val; rw [e1]; omega
  | ⟨2, _⟩ => show win0_2.index t (2 : Fin 3) * 64 + 1 * (y 2).val = (y 2).val; rw [e2]; omega

/-- The output weight's block at any point is the whole transposed weight. -/
theorem wo_block_apply (c : Dev nD) (t : Fin cfg0.N) (y : S3x64.Idx) :
    (iblk m c 3 t : Vec Ideal S3x64 .bf16) y = (V m c main_v7 : S3x64.Idx → EReal) y := by
  obtain ⟨-, -, -, -, -, -, -, e0, e1, -⟩ := block_indices t
  unfold iblk
  rw [View.read_apply]
  show V m c main_v7 _ = V m c main_v7 _
  congr 1
  funext a
  apply Fin.ext
  match a with
  | ⟨0, _⟩ => show win0_3.index t (0 : Fin 2) * 3 + 1 * (y 0).val = (y 0).val; rw [e0]; omega
  | ⟨1, _⟩ => show win0_3.index t (1 : Fin 2) * 64 + 1 * (y 1).val = (y 1).val; rw [e1]; omega

/-- Slab `l` of a [4, 64, 64] block, loaded as [1, 64, 64]: entry `(0, j, k)` is entry `(l, j, k)` of the block. -/
theorem slab0 (x2 : Vec Ideal S4x64x64 .bf16) (j k : Fin 64) : View.ld x2 r0_2 (ix3 0 j k) = x2 (ix3 0 j k) := by
  refine congrArg x2 (funext fun a => Fin.ext ?_)
  match a with
  | ⟨0, _⟩ => rfl
  | ⟨1, _⟩ => show 0 + 1 * j.val = j.val; omega
  | ⟨2, _⟩ => show 0 + 1 * k.val = k.val; omega
theorem slab1 (x2 : Vec Ideal S4x64x64 .bf16) (j k : Fin 64) : View.ld x2 r0_3 (ix3 0 j k) = x2 (ix3 1 j k) := by
  refine congrArg x2 (funext fun a => Fin.ext ?_)
  match a with
  | ⟨0, _⟩ => rfl
  | ⟨1, _⟩ => show 0 + 1 * j.val = j.val; omega
  | ⟨2, _⟩ => show 0 + 1 * k.val = k.val; omega
theorem slab2 (x2 : Vec Ideal S4x64x64 .bf16) (j k : Fin 64) : View.ld x2 r0_4 (ix3 0 j k) = x2 (ix3 2 j k) := by
  refine congrArg x2 (funext fun a => Fin.ext ?_)
  match a with
  | ⟨0, _⟩ => rfl
  | ⟨1, _⟩ => show 0 + 1 * j.val = j.val; omega
  | ⟨2, _⟩ => show 0 + 1 * k.val = k.val; omega
theorem slab3 (x2 : Vec Ideal S4x64x64 .bf16) (j k : Fin 64) : View.ld x2 r0_5 (ix3 0 j k) = x2 (ix3 3 j k) := by
  refine congrArg x2 (funext fun a => Fin.ext ?_)
  match a with
  | ⟨0, _⟩ => rfl
  | ⟨1, _⟩ => show 0 + 1 * j.val = j.val; omega
  | ⟨2, _⟩ => show 0 + 1 * k.val = k.val; omega

end Cert.KernelIdeal.Operands

end
-- ==== Proof.Tiles.lean ====
/-
  From tiles to the result array.

  Point `t` of the grid writes back a [3, 16384] tile: columns `16384·t … 16384·t + 16383` of the transposed result
  [3, 2097152]. Entry `(o, q)` of the tile is the one-row network on column `q` of the point's input block, which is
  row `16384·t + q` of the input: the tile is a block of ONE whole-array function, the transposed result `GT`. The
  128 tiles cover every column (column `b` lies in the tile of point `b / 16384`), so after the region the array is
  `GT`; the host then exchanges the two axes, which gives `G`.
-/
import proofs.«176518_j72722386256143_2_alg».proof.Proof.Gen.KernelIdeal.Frame
import proofs.«176518_j72722386256143_2_alg».proof.Proof.Network
import proofs.«176518_j72722386256143_2_alg».proof.Proof.Body
import proofs.«176518_j72722386256143_2_alg».proof.Proof.Operands
import Idealize.ShloMosaic.Lib.Pipeline.Value
import Idealize.ShloMosaic.Lib.StableHlo.Run
import Idealize.ShloMosaic.Lib.ValueIdx

set_option maxRecDepth 16384

noncomputable section

namespace Cert.KernelIdeal.Tiles

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.KernelIdeal.Operands

variable (m : (ℓ : Loc nD τ sig) → Buf (Elt Ideal) ℓ) (ρ : Dev nD → PrngReg)

theorem hz : (![0, 0] : Fin 2 → Nat) = fun _ => 0 := funext fun a => by fin_cases a <;> rfl

/-- The result of the network on core `c`'s argument arrays, [2097152, 3]. -/
abbrev result (c : Dev nD) : S2097152x3.Idx → EReal :=
  Cert.Mlp.G (m ((c : Thread nD τ).loc main_arg0) : S2097152x32.Idx → EReal) (m ((c : Thread nD τ).loc main_arg1) : S32x64.Idx → EReal)
    (m ((c : Thread nD τ).loc main_arg2) : S4x64x64.Idx → EReal) (m ((c : Thread nD τ).loc main_arg3) : S64x3.Idx → EReal)

/-- The same with its axes exchanged, [3, 2097152]: what the region produces. -/
abbrev resultT (c : Dev nD) : S3x2097152.Idx → EReal :=
  Cert.Mlp.GT (m ((c : Thread nD τ).loc main_arg0) : S2097152x32.Idx → EReal) (m ((c : Thread nD τ).loc main_arg1) : S32x64.Idx → EReal)
    (m ((c : Thread nD τ).loc main_arg2) : S4x64x64.Idx → EReal) (m ((c : Thread nD τ).loc main_arg3) : S64x3.Idx → EReal)

/-- WHAT POINT `t` WRITES BACK is block `t` of the transposed result. -/
theorem flushed_eq (c : Dev nD) (t : Fin cfg0.N) :
    (dats m 0 c).flushed 4 t = ((cfg0.win 4).blk t).view.read (Elt Ideal) (resultT m c) := by
  show (cfg0.win 4).cut (grid0.coords t) ((dats m 0 c).after 4 t) = _
  rw [after0_4]
  unfold out0_4
  rw [View.canon_unit_zero hz]
  simp only [View.ld_unit_zero (S := S32x16384) hz, View.ld_unit_zero (S := S64x32) hz, View.ld_unit_zero (S := S3x64) hz]
  obtain ⟨-, -, -, -, -, -, -, -, -, e0, e1⟩ := block_indices t
  have hN : t.val < 128 := Nat.lt_of_lt_of_eq t.isLt N_0
  funext y
  have hy0 : (y 0).val < 3 := (y 0).isLt
  have hy1 : (y 1).val < 16384 := (y 1).isLt
  have hb : t.val * 16384 + (y 1).val < 2097152 := by omega
  show k0_pay1 (k0_pay2 (iblk m c 0 t) (iblk m c 1 t) (View.ld (iblk m c 2 t) r0_2) (View.ld (iblk m c 2 t) r0_3)
        (View.ld (iblk m c 2 t) r0_4) (View.ld (iblk m c 2 t) r0_5)) (iblk m c 3 t) y
      = resultT m c (((cfg0.win 4).blk t).view.emb y)
  have hemb : ((cfg0.win 4).blk t).view.emb y = ix2 (y 0) (⟨t.val * 16384 + (y 1).val, hb⟩ : Fin 2097152) := by
    funext a; apply Fin.ext
    match a with
    | ⟨0, _⟩ => show win0_4.index t (0 : Fin 2) * 3 + 1 * (y 0).val = (y 0).val; rw [e0]; omega
    | ⟨1, _⟩ => show win0_4.index t (1 : Fin 2) * 16384 + 1 * (y 1).val = t.val * 16384 + (y 1).val; rw [e1]; omega
  rw [hemb]
  refine (Cert.KernelIdeal.Body.stored_apply (iblk m c 0 t) (iblk m c 1 t) (View.ld (iblk m c 2 t) r0_2) (View.ld (iblk m c 2 t) r0_3)
    (View.ld (iblk m c 2 t) r0_4) (View.ld (iblk m c 2 t) r0_5) (iblk m c 3 t) y
    (fun k => (m ((c : Thread nD τ).loc main_arg0) : S2097152x32.Idx → EReal) (ix2 (⟨t.val * 16384 + (y 1).val, hb⟩ : Fin 2097152) k))
    (fun k j => (m ((c : Thread nD τ).loc main_arg1) : S32x64.Idx → EReal) (ix2 k j))
    (fun l k j => (m ((c : Thread nD τ).loc main_arg2) : S4x64x64.Idx → EReal) (ix3 l k j))
    (fun k o => (m ((c : Thread nD τ).loc main_arg3) : S64x3.Idx → EReal) (ix2 k o)) ?_ ?_ ?_ ?_ ?_ ?_ ?_).trans ?_
  · intro k
    exact (x_block_apply m c t (ix2 k (y 1)) (ix2 k (⟨t.val * 16384 + (y 1).val, hb⟩ : Fin 2097152)) rfl rfl).trans
      (found_x_apply m c k _)
  · intro j k
    exact (w0_block_apply m c t (ix2 j k)).trans (found_w0_apply m c j k)
  · intro j k
    exact (slab0 (iblk m c 2 t) j k).trans ((wh_block_apply m c t (ix3 0 j k)).trans (found_wh_apply m c 0 j k))
  · intro j k
    exact (slab1 (iblk m c 2 t) j k).trans ((wh_block_apply m c t (ix3 1 j k)).trans (found_wh_apply m c 1 j k))
  · intro j k
    exact (slab2 (iblk m c 2 t) j k).trans ((wh_block_apply m c t (ix3 2 j k)).trans (found_wh_apply m c 2 j k))
  · intro j k
    exact (slab3 (iblk m c 2 t) j k).trans ((wh_block_apply m c t (ix3 3 j k)).trans (found_wh_apply m c 3 j k))
  · intro o k
    exact (wo_block_apply m c t (ix2 o k)).trans (found_wo_apply m c o k)
  · rfl

/-- An index of the transposed result is in point `t`'s block iff each coordinate is in the block's range. -/
theorem mem_blk (t : Fin cfg0.N) (i : S3x2097152.Idx) :
    i ∈ ((cfg0.win 4).blk t).view.set ↔ ∀ a : Fin 2, win0_4.index t a * S3x16384.size a ≤ (i a).val
      ∧ (i a).val < win0_4.index t a * S3x16384.size a + S3x16384.size a := by
  show i ∈ ((View.whole main_v8).slice (win0_4.rect t)).set ↔ _
  rw [View.set_slice_whole, Rect.mem_set_unit]
  exact Iff.rfl

/-- Every column is in some point's tile: column `b` in that of point `b / 16384`. -/
theorem covered (i : S3x2097152.Idx) : ∃ t : Fin cfg0.N, (cfg0.win 4).flush t = true ∧ i ∈ ((cfg0.win 4).blk t).view.set := by
  have hi0 : (i 0).val < 3 := (i 0).isLt
  have hi1 : (i 1).val < 2097152 := (i 1).isLt
  have hlt : (i 1).val / 16384 < cfg0.N := Nat.lt_of_lt_of_eq (by omega : (i 1).val / 16384 < 128) N_0.symm
  refine ⟨⟨(i 1).val / 16384, hlt⟩, flush0_4 _, ?_⟩
  rw [mem_blk]
  obtain ⟨-, -, -, -, -, -, -, -, -, e0, e1⟩ := block_indices ⟨(i 1).val / 16384, hlt⟩
  have e1' : win0_4.index ⟨(i 1).val / 16384, hlt⟩ (1 : Fin 2) = (i 1).val / 16384 := e1
  intro a
  match a with
  | ⟨0, _⟩ =>
    show win0_4.index ⟨(i 1).val / 16384, hlt⟩ (0 : Fin 2) * 3 ≤ (i 0).val
      ∧ (i 0).val < win0_4.index ⟨(i 1).val / 16384, hlt⟩ (0 : Fin 2) * 3 + 3
    rw [e0]; omega
  | ⟨1, _⟩ =>
    show win0_4.index ⟨(i 1).val / 16384, hlt⟩ (1 : Fin 2) * 16384 ≤ (i 1).val
      ∧ (i 1).val < win0_4.index ⟨(i 1).val / 16384, hlt⟩ (1 : Fin 2) * 16384 + 16384
    rw [e1']; omega

/-- THE ARRAY AFTER THE REGION is the transposed result. -/
theorem after_region (c : Dev nD) : (dats m 0 c).arrAt 4 cfg0.N = resultT m c :=
  (dats m 0 c).arrAt_eq_of_cover 4 (resultT m c) (fun t _ => flushed_eq m c t) covered

/-- The host's exchange of the two axes after the region gives the result. -/
theorem after_tail (c : Dev nD) :
    Pipeline.afterTail₀ cfgs (dats m) 0 (V0 m) [hostOps1] c main_v9 = result m c := by
  unfold Pipeline.afterTail₀
  show StableHlo.after hostOps1 _ (Proc.devRef .tc main_v9) = _
  after_results
  funext i
  obtain ⟨b, o, rfl⟩ : ∃ (b : Fin 2097152) (o : Fin 3), i = ix2 b o := ⟨i 0, i 1, eq_ix2 i⟩
  refine (transpose_apply [1, 0] _ transposes_S3x2097152_S2097152x3_1_0 (ix2 b o) (ix2 o b)
    (fun a => by match a with | ⟨0, _⟩ => rfl | ⟨1, _⟩ => rfl)).trans ?_
  exact (congrFun ((Pipeline.withArrays_arr spec0 launch0.win.arr_inj c _ _ 4).trans (after_region m c)) (ix2 o b)).trans rfl

/-- THE KERNEL'S RUN, read: every weakly fair execution terminates with the result array at the network of the
    argument arrays, and the arguments as launched. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (after_tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Tiles

end
-- ==== Proof.Reference.lean ====
/-
  The reference computes the network row by row.

  Its program is a chain of products and rectifiers on the whole [2097152, ·] arrays: `h ← max (h · W) 0` five
  times — the first weight, then the four [64, 64] slabs sliced out of the hidden weights — and a last product with
  the output weight. Entry `(b, j)` of a product is `∑ k, h (b, k) · W (k, j)`, so row `b` of every stage is a layer
  of the one-row network applied to row `b` of the stage before, and the result array is the whole-array function
  `G` of the four arguments.
-/
import proofs.«176518_j72722386256143_2_alg».proof.Proof.Gen.ReferenceIdeal.Read
import proofs.«176518_j72722386256143_2_alg».proof.Proof.Network
import Idealize.ShloMosaic.PureOps.Ideal.Laws

noncomputable section

namespace Cert.ReferenceIdeal.Layers

open Idealize.ShloMosaic Idealize.ShloMosaic.ValueIdx Cert.ReferenceIdeal Cert.ReferenceIdeal.Read Cert.Mlp

/-- A rank-two index is the pair of its coordinates. -/
theorem pair_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

variable (x0 : S2097152x32.Idx → EReal) (x1 : S32x64.Idx → EReal) (x2 : S4x64x64.Idx → EReal) (x3 : S64x3.Idx → EReal)

/-! ## The four slabs of the hidden weights -/

theorem slab0 (k j : Fin 64) : val_main_v3 (F := Ideal) x2 (ix2 k j) = x2 (ix3 0 k j) := by
  have hk := k.isLt; have hj := j.isLt
  rw [val_main_v3_apply, val_main_v2_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

theorem slab1 (k j : Fin 64) : val_main_v7 (F := Ideal) x2 (ix2 k j) = x2 (ix3 1 k j) := by
  have hk := k.isLt; have hj := j.isLt
  rw [val_main_v7_apply, val_main_v6_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

theorem slab2 (k j : Fin 64) : val_main_v11 (F := Ideal) x2 (ix2 k j) = x2 (ix3 2 k j) := by
  have hk := k.isLt; have hj := j.isLt
  rw [val_main_v11_apply, val_main_v10_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

theorem slab3 (k j : Fin 64) : val_main_v15 (F := Ideal) x2 (ix2 k j) = x2 (ix3 3 k j) := by
  have hk := k.isLt; have hj := j.isLt
  rw [val_main_v15_apply, val_main_v14_apply]
  refine congrArg x2 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega

/-! ## The five rectified layers, row by row -/

/-- The argument arrays read as a row and as weights. -/
abbrev xrow (b : Fin 2097152) : Fin 32 → EReal := fun k => x0 (ix2 b k)
abbrev w0 : Fin 32 → Fin 64 → EReal := fun k j => x1 (ix2 k j)
abbrev wh : Fin 4 → Fin 64 → Fin 64 → EReal := fun l k j => x2 (ix3 l k j)
abbrev wo : Fin 64 → Fin 3 → EReal := fun k o => x3 (ix2 k o)

theorem layer1 (b : Fin 2097152) (j : Fin 64) :
    val_main_v1 (F := Ideal) x0 x1 (ix2 b j) = relu (dense (xrow x0 b) (w0 x1)) j := by
  rw [val_main_v1_apply, val_main_v0_apply, val_main_call0_v0_apply, val_main_call0_cst_apply]
  show max (∑ k : Fin 32, x0 (lidx_main_v0 (ix2 b j) k) * x1 (ridx_main_v0 (ix2 b j) k)) (Ideal.ofBits .f32 0x00000000#32) = _
  rw [Ideal.ofBits_zero_f32]
  exact congrArg (max · 0) (Finset.sum_congr rfl fun k _ => by
    rw [pair_eq (lidx_main_v0 (ix2 b j) k) b k rfl rfl, pair_eq (ridx_main_v0 (ix2 b j) k) k j rfl rfl])

theorem layer2 (b : Fin 2097152) (j : Fin 64) :
    val_main_v5 (F := Ideal) x0 x1 x2 (ix2 b j) = relu (dense (relu (dense (xrow x0 b) (w0 x1))) (wh x2 0)) j := by
  rw [val_main_v5_apply, val_main_v4_apply, val_main_call1_v0_apply, val_main_call1_cst_apply]
  show max (∑ k : Fin 64, val_main_v1 (F := Ideal) x0 x1 (lidx_main_v4 (ix2 b j) k) * val_main_v3 (F := Ideal) x2 (ridx_main_v4 (ix2 b j) k))
    (Ideal.ofBits .f32 0x00000000#32) = _
  rw [Ideal.ofBits_zero_f32]
  exact congrArg (max · 0) (Finset.sum_congr rfl fun k _ => by
    rw [pair_eq (lidx_main_v4 (ix2 b j) k) b k rfl rfl, pair_eq (ridx_main_v4 (ix2 b j) k) k j rfl rfl, slab0, layer1])

theorem layer3 (b : Fin 2097152) (j : Fin 64) :
    val_main_v9 (F := Ideal) x0 x1 x2 (ix2 b j)
      = relu (dense (relu (dense (relu (dense (xrow x0 b) (w0 x1))) (wh x2 0))) (wh x2 1)) j := by
  rw [val_main_v9_apply, val_main_v8_apply, val_main_call2_v0_apply, val_main_call2_cst_apply]
  show max (∑ k : Fin 64, val_main_v5 (F := Ideal) x0 x1 x2 (lidx_main_v8 (ix2 b j) k) * val_main_v7 (F := Ideal) x2 (ridx_main_v8 (ix2 b j) k))
    (Ideal.ofBits .f32 0x00000000#32) = _
  rw [Ideal.ofBits_zero_f32]
  exact congrArg (max · 0) (Finset.sum_congr rfl fun k _ => by
    rw [pair_eq (lidx_main_v8 (ix2 b j) k) b k rfl rfl, pair_eq (ridx_main_v8 (ix2 b j) k) k j rfl rfl, slab1, layer2])

theorem layer4 (b : Fin 2097152) (j : Fin 64) :
    val_main_v13 (F := Ideal) x0 x1 x2 (ix2 b j)
      = relu (dense (relu (dense (relu (dense (relu (dense (xrow x0 b) (w0 x1))) (wh x2 0))) (wh x2 1))) (wh x2 2)) j := by
  rw [val_main_v13_apply, val_main_v12_apply, val_main_call3_v0_apply, val_main_call3_cst_apply]
  show max (∑ k : Fin 64, val_main_v9 (F := Ideal) x0 x1 x2 (lidx_main_v12 (ix2 b j) k) * val_main_v11 (F := Ideal) x2 (ridx_main_v12 (ix2 b j) k))
    (Ideal.ofBits .f32 0x00000000#32) = _
  rw [Ideal.ofBits_zero_f32]
  exact congrArg (max · 0) (Finset.sum_congr rfl fun k _ => by
    rw [pair_eq (lidx_main_v12 (ix2 b j) k) b k rfl rfl, pair_eq (ridx_main_v12 (ix2 b j) k) k j rfl rfl, slab2, layer3])

theorem layer5 (b : Fin 2097152) (j : Fin 64) :
    val_main_v17 (F := Ideal) x0 x1 x2 (ix2 b j)
      = relu (dense (relu (dense (relu (dense (relu (dense (relu (dense (xrow x0 b) (w0 x1))) (wh x2 0))) (wh x2 1))) (wh x2 2))) (wh x2 3)) j := by
  rw [val_main_v17_apply, val_main_v16_apply, val_main_call4_v0_apply, val_main_call4_cst_apply]
  show max (∑ k : Fin 64, val_main_v13 (F := Ideal) x0 x1 x2 (lidx_main_v16 (ix2 b j) k) * val_main_v15 (F := Ideal) x2 (ridx_main_v16 (ix2 b j) k))
    (Ideal.ofBits .f32 0x00000000#32) = _
  rw [Ideal.ofBits_zero_f32]
  exact congrArg (max · 0) (Finset.sum_congr rfl fun k _ => by
    rw [pair_eq (lidx_main_v16 (ix2 b j) k) b k rfl rfl, pair_eq (ridx_main_v16 (ix2 b j) k) k j rfl rfl, slab3, layer4])

/-! ## The result -/

/-- The reference's last stage is the whole-array function `G` of its four arguments. -/
theorem result_eq : val_main_v18 (F := Ideal) x0 x1 x2 x3 = G x0 x1 x2 x3 := by
  funext i
  obtain ⟨b, o, rfl⟩ : ∃ (b : Fin 2097152) (o : Fin 3), i = ix2 b o := ⟨i 0, i 1, eq_ix2 i⟩
  rw [val_main_v18_apply]
  show (∑ k : Fin 64, val_main_v17 (F := Ideal) x0 x1 x2 (lidx_main_v18 (ix2 b o) k) * x3 (ridx_main_v18 (ix2 b o) k))
    = dense (relu (dense (relu (dense (relu (dense (relu (dense (relu (dense (xrow x0 b) (w0 x1))) (wh x2 0))) (wh x2 1))) (wh x2 2))) (wh x2 3))) (wo x3) o
  exact Finset.sum_congr rfl fun k _ => by
    rw [pair_eq (lidx_main_v18 (ix2 b o) k) b k rfl rfl, pair_eq (ridx_main_v18 (ix2 b o) k) k o rfl rfl, layer5]

end Cert.ReferenceIdeal.Layers

end
-- ==== Proof.lean ====
/-
  A small fully connected network, 32 → 64 → 64 → 64 → 64 → 64 → 3 with a rectifier after each of the first five
  layers and no biases, applied to 2097152 rows: the kernel against the plain reference, over the extended reals.

  The reference computes `h ← max (h · W) 0` on the whole [2097152, ·] arrays, then the last product. The kernel
  works on the TRANSPOSED problem: the host transposes the input and every weight, the region cuts the 2097152
  columns of the transposed input into 128 tiles of 16384 and computes `max (Wᵀ · g) 0` layer by layer on each
  tile, and the host transposes the [3, 2097152] result back. Over the extended reals the changes of float format
  are the identity, a product into a zero accumulator is the plain contraction, and the product of two extended
  reals commutes: `∑ k, Wᵀ (j, k) · g (k, q) = ∑ k, g (k, q) · W (k, j)`. Row `b` of the result depends on row `b`
  of the input only, so each tile entry is the one-row network on its own column, the 128 tiles are blocks of one
  whole-array function, and that function, with its axes exchanged back, is what the reference computes. No step
  uses a law that fails at an infinity (only commutativity of the product and re-indexing of sums), so the
  precondition is not opened.

  The modules: Network (the one-row network and the whole-array function), Body (a tile's entries), Operands
  (the arrays the region finds and a point's blocks), Tiles (tiles to array, the transpose back, the kernel's run),
  Reference (the reference's stages, row by row).
-/
import proofs.«176518_j72722386256143_2_alg».proof.Defs
import proofs.«176518_j72722386256143_2_alg».proof.Proof.Gen.Kernel
import proofs.«176518_j72722386256143_2_alg».proof.Proof.Gen.Kernel.Skeleton
import proofs.«176518_j72722386256143_2_alg».proof.Proof.Gen.Kernel.Launch
import proofs.«176518_j72722386256143_2_alg».proof.Proof.Gen.Kernel.Points
import proofs.«176518_j72722386256143_2_alg».proof.Proof.Gen.Kernel.Frame
import proofs.«176518_j72722386256143_2_alg».proof.Proof.Gen.KernelIdeal
import proofs.«176518_j72722386256143_2_alg».proof.Proof.Gen.KernelIdeal.Skeleton
import proofs.«176518_j72722386256143_2_alg».proof.Proof.Gen.KernelIdeal.Launch
import proofs.«176518_j72722386256143_2_alg».proof.Proof.Gen.KernelIdeal.Points
import proofs.«176518_j72722386256143_2_alg».proof.Proof.Gen.KernelIdeal.Frame
import proofs.«176518_j72722386256143_2_alg».proof.Proof.Gen.ReferenceIdeal
import proofs.«176518_j72722386256143_2_alg».proof.Proof.Gen.Pre_finite_inputs
import proofs.«176518_j72722386256143_2_alg».proof.Proof.Gen.ReferenceIdeal.Run
import proofs.«176518_j72722386256143_2_alg».proof.Proof.Gen.ReferenceIdeal.Read
import proofs.«176518_j72722386256143_2_alg».proof.Proof.Tiles
import proofs.«176518_j72722386256143_2_alg».proof.Proof.Reference
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the network of the arguments: the kernel through its tiles
    and the transpose back, the reference stage by stage. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Layers.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
